-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v48)) (v1 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_v49) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x128 : Shape := ⟨2, ![50000, 128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : IVec S2x800000 32) (main_arg1 : FVec F S50000x128 .f32) (main_arg2 : FVec F S50000x128 .f32) (main_arg3 : FVec F S128x128 .f32) : IVec S_ 1 :=
  let main_v0 : FVec F S50000x128 .f32 := Host.absf main_arg1
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  main_v13
-- ==== Kernel.lean ====
abbrev S2x800000 : Shape := ⟨2, ![2, 800000]⟩
abbrev S50000x128 : Shape := ⟨2, ![50000, 128]⟩
abbrev S128x128 : Shape := ⟨2, ![128, 128]⟩
abbrev S100000x128 : Shape := ⟨2, ![100000, 128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S900000 : Shape := ⟨1, ![900000]⟩
abbrev S900000x1 : Shape := ⟨2, ![900000, 1]⟩
abbrev S5000x128 : Shape := ⟨2, ![5000, 128]⟩
abbrev S900000x128 : Shape := ⟨2, ![900000, 128]⟩

abbrev nBuf : Space → Nat
  | .hbm => 68
  | .vmem => 9
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S50000x128, .f32⟩
  | .hbm, ⟨3, _⟩ => ⟨S128x128, .f32⟩
  | .hbm, ⟨4, _⟩ => ⟨S100000x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S100000, .i32⟩
  | .hbm, ⟨13, _⟩ => ⟨S900000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S100000x128, .f32⟩
  | .hbm, ⟨49, _⟩ => ⟨S_, .i32⟩
  | .hbm, ⟨50, _⟩ => ⟨S900000, .i32⟩
  | .hbm, ⟨51, _⟩ => ⟨S900000, .i1⟩
  | .hbm, ⟨52, _⟩ => ⟨S_, .i32⟩
  | .hbm, ⟨53, _⟩ => ⟨S900000, .i32⟩
  | .hbm, ⟨54, _⟩ => ⟨S900000, .i32⟩
  | .hbm, ⟨55, _⟩ => ⟨S900000, .i32⟩
  | .hbm, ⟨56, _⟩ => ⟨S900000x1, .i32⟩
  | .hbm, ⟨57, _⟩ => ⟨S900000x128, .f32⟩
  | .hbm, ⟨58, _⟩ => ⟨S900000x1, .f32⟩
  | .hbm, ⟨59, _⟩ => ⟨S900000x128, .f32⟩
  | .hbm, ⟨60, _⟩ => ⟨S900000x128, .f32⟩
  | .hbm, ⟨61, _⟩ => ⟨S_, .f32⟩
  | .hbm, ⟨62, _⟩ => ⟨S100000x128, .f32⟩
  | .hbm, ⟨63, _⟩ => ⟨S900000x1, .i32⟩
  | .hbm, ⟨64, _⟩ => ⟨S100000x128, .f32⟩
  | .hbm, ⟨65, _⟩ => ⟨S100000x128, .f32⟩
  | .hbm, ⟨66, _⟩ => ⟨S50000x128, .f32⟩
  | .hbm, ⟨67, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

class Facts₀ : Prop where
  concatenates_S50000x128_S50000x128_S100000x128_d0 : Shape.Concatenates [S50000x128, S50000x128] S100000x128 0
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  slices_S100000x128_S50000x128_0_0 : S100000x128.Slices ![0, 0] S50000x128
  slices_S100000x128_S50000x128_50000_0 : S100000x128.Slices ![50000, 0] S50000x128
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S5000x128_S128x128_S5000x128_1_0_0_1_n_n_wf : DotDims.WF S5000x128 S128x128 S5000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47) S5000x128.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

class Facts : Prop extends Facts₀ where

variable [Facts]
-- ==== ReferenceIdeal.lean ====
abbrev S2x800000 : Shape := ⟨2, ![2, 800000]⟩
abbrev S50000x128 : Shape := ⟨2, ![50000, 128]⟩
abbrev S128x128 : Shape := ⟨2, ![128, 128]⟩
abbrev S100000x128 : Shape := ⟨2, ![100000, 128]⟩
abbrev S1x800000 : Shape := ⟨2, ![1, 800000]⟩
abbrev S800000 : Shape := ⟨1, ![800000]⟩
abbrev S_ : Shape := ⟨0, ![]⟩
abbrev S100000 : Shape := ⟨1, ![100000]⟩
abbrev S900000 : Shape := ⟨1, ![900000]⟩
abbrev S900000x1 : Shape := ⟨2, ![900000, 1]⟩
abbrev S900000x128 : Shape := ⟨2, ![900000, 128]⟩

abbrev nBuf : Space → Nat
  | .hbm => 70
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x128, .f32⟩
  | .hbm, ⟨2, _⟩ => ⟨S50000x128, .f32⟩
  | .hbm, ⟨3, _⟩ => ⟨S128x128, .f32⟩
  | .hbm, ⟨4, _⟩ => ⟨S100000x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S100000, .i32⟩
  | .hbm, ⟨13, _⟩ => ⟨S900000, .i32⟩
  | .hbm, ⟨14, _⟩ => ⟨S900000, .i32⟩
  | .hbm, ⟨15, _⟩ => ⟨S_, .f32⟩
  | .hbm, ⟨16, _⟩ => ⟨S900000, .f32⟩
  | .hbm, ⟨17, _⟩ => ⟨S_, .f32⟩
  | .hbm, ⟨18, _⟩ => ⟨S100000, .f32⟩
  | .hbm, ⟨19, _⟩ => ⟨S900000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S900000, .i32⟩
  | .hbm, ⟨31, _⟩ => ⟨S900000, .i1⟩
  | .hbm, ⟨32, _⟩ => ⟨S_, .i32⟩
  | .hbm, ⟨33, _⟩ => ⟨S900000, .i32⟩
  | .hbm, ⟨34, _⟩ => ⟨S900000, .i32⟩
  | .hbm, ⟨35, _⟩ => ⟨S900000, .i32⟩
  | .hbm, ⟨36, _⟩ => ⟨S900000x1, .i32⟩
  | .hbm, ⟨37, _⟩ => ⟨S900000, .f32⟩
  | .hbm, ⟨38, _⟩ => ⟨S_, .i32⟩
  | .hbm, ⟨39, _⟩ => ⟨S900000, .i32⟩
  | .hbm, ⟨40, _⟩ => ⟨S900000, .i1⟩
  | .hbm, ⟨41, _⟩ => ⟨S_, .i32⟩
  | .hbm, ⟨42, _⟩ => ⟨S900000, .i32⟩
  | .hbm, ⟨43, _⟩ => ⟨S900000, .i32⟩
  | .hbm, ⟨44, _⟩ => ⟨S900000, .i32⟩
  | .hbm, ⟨45, _⟩ => ⟨S900000x1, .i32⟩
  | .hbm, ⟨46, _⟩ => ⟨S900000, .f32⟩
  | .hbm, ⟨47, _⟩ => ⟨S900000, .f32⟩
  | .hbm, ⟨48, _⟩ => ⟨S100000x128, .f32⟩
  | .hbm, ⟨49, _⟩ => ⟨S_, .i32⟩
  | .hbm, ⟨50, _⟩ => ⟨S900000, .i32⟩
  | .hbm, ⟨51, _⟩ => ⟨S900000, .i1⟩
  | .hbm, ⟨52, _⟩ => ⟨S_, .i32⟩
  | .hbm, ⟨53, _⟩ => ⟨S900000, .i32⟩
  | .hbm, ⟨54, _⟩ => ⟨S900000, .i32⟩
  | .hbm, ⟨55, _⟩ => ⟨S900000, .i32⟩
  | .hbm, ⟨56, _⟩ => ⟨S900000x1, .i32⟩
  | .hbm, ⟨57, _⟩ => ⟨S900000x128, .f32⟩
  | .hbm, ⟨58, _⟩ => ⟨S900000x1, .f32⟩
  | .hbm, ⟨59, _⟩ => ⟨S900000x128, .f32⟩
  | .hbm, ⟨60, _⟩ => ⟨S900000x128, .f32⟩
  | .hbm, ⟨61, _⟩ => ⟨S_, .f32⟩
  | .hbm, ⟨62, _⟩ => ⟨S100000x128, .f32⟩
  | .hbm, ⟨63, _⟩ => ⟨S900000x1, .i32⟩
  | .hbm, ⟨64, _⟩ => ⟨S100000x128, .f32⟩
  | .hbm, ⟨65, _⟩ => ⟨S_, .f32⟩
  | .hbm, ⟨66, _⟩ => ⟨S100000x128, .f32⟩
  | .hbm, ⟨67, _⟩ => ⟨S100000x128, .f32⟩
  | .hbm, ⟨68, _⟩ => ⟨S50000x128, .f32⟩
  | .hbm, ⟨69, _⟩ => ⟨S50000x128, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_c_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_c_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_c_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_call1_cst : Ref sig .tc := ⟨.hbm, 65, rfl⟩
abbrev main_call1_v0 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  concatenates_S800000_S100000_S900000_d0 : Shape.Concatenates [S800000, S100000] S900000 0
  bcast_S_S900000 : S_.BroadcastsInDim S900000 (![] : Fin 0 → Fin S900000.rank)
  bcast_S_S100000 : S_.BroadcastsInDim S100000 (![] : Fin 0 → Fin S100000.rank)
  bcast_S900000_S900000x1_0 : S900000.BroadcastsInDim S900000x1 (![0] : Fin 1 → Fin S900000x1.rank)
  bcast_S900000x1_S900000x128_0_1 : S900000x1.BroadcastsInDim S900000x128 (![0, 1] : Fin 2 → Fin S900000x128.rank)
  bcast_S_S100000x128 : S_.BroadcastsInDim S100000x128 (![] : Fin 0 → Fin S100000x128.rank)
  slices_S100000x128_S50000x128_0_0 : S100000x128.Slices ![0, 0] S50000x128
  slices_S100000x128_S50000x128_50000_0 : S100000x128.Slices ![50000, 0] S50000x128
  scatter_S100000_S900000x1_S900000_n_0_0_1_wf : ScatterDims.WF S100000 S900000x1 S900000 [] [0] [0] 1
  gather_S100000_S900000x1_S900000_n_0_n_n_0_1_1_wf : GatherDims.WF S100000 S900000x1 S900000 [] [0] [] [0] [] 1 ![1]
  dot_S100000x128_S128x128_S100000x128_1_0_0_1_n_n_wf : DotDims.WF S100000x128 S128x128 S100000x128 [1] [0] [0] [1] [] []
  gather_S100000x128_S900000x1_S900000x128_1_0_n_n_0_1_1128_wf : GatherDims.WF S100000x128 S900000x1 S900000x128 [1] [0] [] [0] [] 1 ![1, 128]
  scatter_S100000x128_S900000x1_S900000x128_1_0_0_1_wf : ScatterDims.WF S100000x128 S900000x1 S900000x128 [1] [0] [0] 1

variable [Facts₀]

def scatter_S100000_S900000x1_S900000_n_0_0_1 : ScatterDims S100000 S900000x1 S900000 where
  updateWindowDims := []
  insertedWindowDims := [0]
  scatterDimsToOperandDims := [0]
  indexVectorDim := 1
  wf := scatter_S100000_S900000x1_S900000_n_0_0_1_wf
def gather_S100000_S900000x1_S900000_n_0_n_n_0_1_1 : GatherDims S100000 S900000x1 S900000 where
  offsetDims := []
  collapsedSliceDims := [0]
  operandBatchingDims := []
  startIndicesBatchingDims := []
  startIndexMap := [0]
  indexVectorDim := 1
  sliceSizes := ![1]
  wf := gather_S100000_S900000x1_S900000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S900000x1_S900000x128_1_0_n_n_0_1_1128 : GatherDims S100000x128 S900000x1 S900000x128 where
  offsetDims := [1]
  collapsedSliceDims := [0]
  operandBatchingDims := []
  startIndicesBatchingDims := []
  startIndexMap := [0]
  indexVectorDim := 1
  sliceSizes := ![1, 128]
  wf := gather_S100000x128_S900000x1_S900000x128_1_0_n_n_0_1_1128_wf
def scatter_S100000x128_S900000x1_S900000x128_1_0_0_1 : ScatterDims S100000x128 S900000x1 S900000x128 where
  updateWindowDims := [1]
  insertedWindowDims := [0]
  scatterDimsToOperandDims := [0]
  indexVectorDim := 1
  wf := scatter_S100000x128_S900000x1_S900000x128_1_0_0_1_wf

class Facts : Prop extends Facts₀ where

variable [Facts]
-- ==== Proof.KRun.lean ====
/-
  The idealized kernel's run with its two results named.

  The program is five stretches of host operations around two launches: the linear transform (a row-blocked matrix
  product) and the final rectifier. The generated frame folds the buffer contents through those seven segments,
  `W0 … W7`, and proves that every weakly fair execution ends with every unscoped buffer at the last boundary's
  contents `W7`; it then states only that the arguments end unchanged. Here the same run is stated with the two result
  buffers read at `W7` as well, which is what the value claim needs; what `W7` holds there is computed elsewhere.
-/
import proofs.«128792_j69526930588078_1_alg».proof.Proof.Gen.KernelIdeal.Frame

set_option maxRecDepth 16384

noncomputable section

namespace Cert.KernelIdeal.Results

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the two result buffers end at what the
    last boundary's contents hold there, and the four argument arrays end as launched. -/
theorem run_results : θ_run defs (onTc (τ := τ) (main (F := F))) ⟨m, fun _ => 0, ρ⟩ (fun r => ∀ c : Dev nD,
      r.2.mem ((c.tc : Thread nD τ).loc main_v48) = W7 m ρ c (Proc.devRef .tc main_v48)
      ∧ r.2.mem ((c.tc : Thread nD τ).loc main_v49) = W7 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v48 (by decide)),
       h c _ (mem_uc main_v49 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c)⟩)

end Cert.KernelIdeal.Results

end
-- ==== Proof.LinearArray.lean ====
/-
  The linear launch: its output array, as one function of the two arrays it reads.

  The launch walks 20 grid points; at point `t` it fetches rows `5000·t … 5000·t + 4999` of the [100000, 128] features
  and the whole [128, 128] weight, multiplies the two blocks into a zero accumulator (the casts of both operands to a
  narrower format are the identity on exact values), and writes the [5000, 128] product back to the same rows of the
  output. Entry (p, q) of a block product is the sum over the 128 contracted columns of feature (p, k) times weight
  (k, q), and row p of block `t` is row `5000·t + p` of the features, so the output ends holding, at every index
  (r, q), the sum over k of feature (r, k) times weight (k, q): the whole matrix product, blocked only in how it was
  computed.
-/
import proofs.«128792_j69526930588078_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Linear

open Idealize.ShloMosaic Idealize.ShloMosaic.TcCoe Idealize.SL.Sem
open Idealize.ShloMosaic.Pipeline (Dat)
open Cert.KernelIdeal Cert.KernelIdeal.Gen

-- the buffer contents the launch is entered with: a parameter
variable (V : (c : Dev nD) → (b : Ref sig .tc) → Buf (Elt Ideal) ((c : Thread nD τ).loc b))

/-- A block that starts at the origin of its buffer. -/
theorem origin : (![0, 0] : Fin 2 → Nat) = fun _ => 0 := funext fun a => by fin_cases a <;> rfl

/-! ## Indices -/

/-- Row `r`, column `k` of the features. -/
abbrev featIdx (r : Fin 100000) (k : Fin 128) : S100000x128.Idx := fun a => match a with
  | ⟨0, _⟩ => r
  | ⟨1, _⟩ => k
/-- Row `k`, column `q` of the weight. -/
abbrev weightIdx (k : Fin 128) (q : Fin 128) : S128x128.Idx := fun a => match a with
  | ⟨0, _⟩ => k
  | ⟨1, _⟩ => q
/-- Row `p`, column `k` of a feature block. -/
abbrev blockIdx (p : Fin 5000) (k : Fin 128) : S5000x128.Idx := fun a => match a with
  | ⟨0, _⟩ => p
  | ⟨1, _⟩ => k

/-- The whole matrix product of a [100000, 128] array with a [128, 128] array, entry by entry. -/
abbrev product (x : S100000x128.Idx → Elt Ideal .f32) (w : S128x128.Idx → Elt Ideal .f32) : S100000x128.Idx → Elt Ideal .f32 :=
  fun i => ∑ k : Fin 128, x (featIdx ⟨(i 0).val, (i 0).isLt⟩ k) * w (weightIdx k ⟨(i 1).val, (i 1).isLt⟩)

/-! ## The block product at an entry -/

theorem lhs_row (j : S5000x128.Idx) (q : dot_S5000x128_S128x128_S5000x128_1_0_0_1_n_n.contr.Idx) :
    (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem lhs_col (j : S5000x128.Idx) (q : dot_S5000x128_S128x128_S5000x128_1_0_0_1_n_n.contr.Idx) :
    (dot_S5000x128_S128x128_S5000x128_1_0_0_1_n_n.lhsIdx j q 1).val = (q ⟨0, by decide⟩).val :=
  dot_S5000x128_S128x128_S5000x128_1_0_0_1_n_n.lhsIdx_val_of_single rfl j q
theorem rhs_row (j : S5000x128.Idx) (q : dot_S5000x128_S128x128_S5000x128_1_0_0_1_n_n.contr.Idx) :
    (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) :
    (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

/-- The body's stored value at entry `j` of the block: the sum over the contracted axis of the loaded feature block
    at (row of `j`, k) times the loaded weight at (k, column of `j`). The casts are the identity on exact values and the
    accumulator is the zero splat. -/
theorem stored (x0 : Vec Ideal S5000x128 .f32) (x1 : Vec Ideal S128x128 .f32) (j : S5000x128.Idx) :
    k0_pay1 x0 x1 j = ∑ k : Fin 128, x0 (blockIdx ⟨(j 0).val, (j 0).isLt⟩ k) * x1 (weightIdx k ⟨(j 1).val, (j 1).isLt⟩) := by
  unfold k0_pay1
  simp only [shapeCast_self]
  refine (Ideal.matmul_constant_zero_apply dot_S5000x128_S128x128_S5000x128_1_0_0_1_n_n none _ _ j).trans ?_
  rw [← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k)
      = blockIdx ⟨(j 0).val, (j 0).isLt⟩ k := funext fun a => Fin.ext (by
    match a with
    | ⟨0, _⟩ => exact lhs_row _ _
    | ⟨1, _⟩ => exact (lhs_col _ _).trans hk)
  have er : dot_S5000x128_S128x128_S5000x128_1_0_0_1_n_n.rhsIdx j ((ValueIdx.contrEquiv1 dot_S5000x128_S128x128_S5000x128_1_0_0_1_n_n 128 rfl rfl).symm k)
      = weightIdx k ⟨(j 1).val, (j 1).isLt⟩ := funext fun a => Fin.ext (by
    match a with
    | ⟨0, _⟩ => exact (rhs_row _ _).trans hk
    | ⟨1, _⟩ => exact rhs_col _ _)
  rw [el, er]
  rfl

/-! ## From blocks to the array -/

/-- The windows' index maps over the grid: the features' and the output's blocks are block row `t`, block column 0;
    the weight's block is always the whole array. -/
theorem blocks_at : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (p, k) of the feature block at point `t` is entry (5000·t + p, k) of the features. -/
theorem feature_block (c : Dev nD) (t : Fin cfg0.N) (p : Fin 5000) (k : Fin 128) (r : Fin 100000)
    (hr : r.val = t.val * 5000 + p.val) :
    iblk0 V c 0 t (blockIdx p k) = V c main_v0 (featIdx r k) := by
  obtain ⟨e0, e1, -, -, -, -⟩ := blocks_at t
  show V c main_v0 (((cfg0.win 0).blk t).view.emb (blockIdx p k)) = V c main_v0 (featIdx r k)
  refine congrArg (V c main_v0) ?_
  funext a; apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry (k, q) of the weight block at any point is entry (k, q) of the weight. -/
theorem weight_block (c : Dev nD) (t : Fin cfg0.N) (k q : Fin 128) :
    iblk0 V c 1 t (weightIdx k q) = V c main_arg3 (weightIdx k q) := by
  obtain ⟨-, -, e2, e3, -, -⟩ := blocks_at t
  show V c main_arg3 (((cfg0.win 1).blk t).view.emb (weightIdx k q)) = V c main_arg3 (weightIdx k q)
  refine congrArg (V c main_arg3) ?_
  funext a; apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the whole matrix product. -/
theorem written_back (c : Dev nD) (t : Fin cfg0.N) :
    (dat0 V c).flushed 2 t = ((cfg0.win 2).blk t).view.read (Elt Ideal) (product (V c main_v0) (V c main_arg3)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x128) origin]
  obtain ⟨-, -, -, -, e4, e5⟩ := blocks_at t
  funext j
  have hj0 : (j 0).val < 5000 := (j 0).isLt
  have hj1 : (j 1).val < 128 := (j 1).isLt
  have hN : grid0.N = 20 := N_0
  have htv : t.val < 20 := hN ▸ t.isLt
  show k0_pay1 (iblk0 V c 0 t) (iblk0 V c 1 t) j = product (V c main_v0) (V c main_arg3) (((cfg0.win 2).blk t).view.emb j)
  rw [stored]
  have hrow : ((((cfg0.win 2).blk t).view.emb j) 0).val = t.val * 5000 + (j 0).val := by
    show win0_2.index t (0 : Fin 2) * 5000 + 1 * (j 0).val = _; omega
  have hcol : ((((cfg0.win 2).blk t).view.emb j) 1).val = (j 1).val := by
    show win0_2.index t (1 : Fin 2) * 128 + 1 * (j 1).val = _; omega
  refine Finset.sum_congr rfl fun k _ => ?_
  rw [feature_block V c t ⟨(j 0).val, hj0⟩ k ⟨((((cfg0.win 2).blk t).view.emb j) 0).val, (((cfg0.win 2).blk t).view.emb j 0).isLt⟩ hrow,
    weight_block V c t k ⟨(j 1).val, hj1⟩]
  have hq : (⟨(j 1).val, hj1⟩ : Fin 128) = ⟨((((cfg0.win 2).blk t).view.emb j) 1).val, (((cfg0.win 2).blk t).view.emb j 1).isLt⟩ :=
    Fin.ext hcol.symm
  rw [hq]

/-- An index of the output lies in point `t`'s block iff each coordinate lies in the block's range on its axis. -/
theorem in_block (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v33).slice (win0_2.rect t)).set ↔ _
  rw [View.set_slice_whole, Rect.mem_set_unit]
  exact Iff.rfl

/-- Every index of the output is in the block of the point numbered by its row divided by 5000. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 20 := N_0
  have ht : (i 0).val / 5000 < grid0.N := by rw [hN]; omega
  obtain ⟨-, -, -, -, q0, q1⟩ := blocks_at ⟨(i 0).val / 5000, ht⟩
  refine ⟨⟨(i 0).val / 5000, ht⟩, flush0_2 _, ?_⟩
  rw [in_block]
  intro a
  match a with
  | ⟨0, _⟩ =>
    show win0_2.index ⟨(i 0).val / 5000, ht⟩ (0 : Fin 2) * 5000 ≤ (i 0).val
      ∧ (i 0).val < win0_2.index ⟨(i 0).val / 5000, ht⟩ (0 : Fin 2) * 5000 + 5000
    rw [q0]; show (i 0).val / 5000 * 5000 ≤ (i 0).val ∧ (i 0).val < (i 0).val / 5000 * 5000 + 5000; omega
  | ⟨1, _⟩ =>
    show win0_2.index ⟨(i 0).val / 5000, ht⟩ (1 : Fin 2) * 128 ≤ (i 1).val
      ∧ (i 1).val < win0_2.index ⟨(i 0).val / 5000, ht⟩ (1 : Fin 2) * 128 + 128
    rw [q1]; omega

/-- The output array after the launch is the whole matrix product of the features and the weight as the launch found them. -/
theorem array (c : Dev nD) : (dat0 V c).arrAt 2 cfg0.N = product (V c main_v0) (V c main_arg3) :=
  (dat0 V c).arrAt_eq_of_cover 2 (product (V c main_v0) (V c main_arg3)) (fun t _ => written_back V c t) covered

end Cert.KernelIdeal.Linear

end
-- ==== Proof.ReluArray.lean ====
/-
  The rectifier launch: its output array, as one function of the array it reads.

  The launch walks 20 grid points; at point `t` it fetches rows `5000·t … 5000·t + 4999` of the [100000, 128] input,
  takes the maximum of every entry with zero, and writes the block back to the same rows of the output. The blocks
  tile the output, so the array ends holding `max (x i) 0` at every index `i`: the entry-wise rectifier of the input
  as the launch finds it.
-/
import proofs.«128792_j69526930588078_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Rectifier

open Idealize.ShloMosaic Idealize.ShloMosaic.TcCoe Idealize.SL.Sem
open Idealize.ShloMosaic.Pipeline (Dat)
open Cert.KernelIdeal Cert.KernelIdeal.Gen

-- the buffer contents the launch is entered with: a parameter
variable (V : (c : Dev nD) → (b : Ref sig .tc) → Buf (Elt Ideal) ((c : Thread nD τ).loc b))

/-- A block that starts at the origin of its buffer. -/
theorem origin : (![0, 0] : Fin 2 → Nat) = fun _ => 0 := funext fun a => by fin_cases a <;> rfl

/-- The entry-wise rectifier of a [100000, 128] array: each entry against the zero word. -/
abbrev rectified (x : S100000x128.Idx → Elt Ideal .f32) : S100000x128.Idx → Elt Ideal .f32 :=
  fun i => FloatOps.maximumf (F := Ideal) (x i) (FloatOps.ofBits (F := Ideal) .f32 0x00000000#32)

/-- The body's stored value is the rectifier of the loaded block, entry by entry: the cast to the block's own shape
    is the identity and the splat constant is the zero word everywhere. -/
theorem stored (x0 : Vec Ideal S5000x128 .f32) :
    k1_pay1 x0 = fun j => FloatOps.maximumf (F := Ideal) (x0 j) (FloatOps.ofBits (F := Ideal) .f32 0x00000000#32) := by
  unfold k1_pay1
  simp only [shapeCast_self]
  rfl

/-- The input's and the output's index maps agree at every grid point, on both axes. -/
theorem same_block : ∀ t : Fin cfg1.N, win1_0.index t (0 : Fin 2) = win1_1.index t (0 : Fin 2)
    ∧ win1_0.index t (1 : Fin 2) = win1_1.index t (1 : Fin 2) :=
  (by decide +kernel : ∀ t : Fin grid1.N, _)

/-- The output's block at point `t` is block row `t`, block column 0. -/
theorem out_block : ∀ t : Fin cfg1.N, win1_1.index t (0 : Fin 2) = t.val ∧ win1_1.index t (1 : Fin 2) = 0 :=
  (by decide +kernel : ∀ t : Fin grid1.N, _)

/-- What point `t` writes back is block `t` of the rectified input. -/
theorem written_back (c : Dev nD) (t : Fin cfg1.N) :
    (dat1 V c).flushed 1 t = ((cfg1.win 1).blk t).view.read (Elt Ideal) (rectified (V c main_v46)) := by
  show (cfg1.win 1).cut (grid1.coords t) ((dat1 V c).after 1 t) = _
  rw [after1_1]
  unfold out1_1
  rw [View.canon_unit_zero origin]
  simp only [View.ld_unit_zero (S := S5000x128) origin]
  rw [stored]
  obtain ⟨e0, e1⟩ := same_block t
  funext j
  show FloatOps.maximumf (F := Ideal) (V c main_v46 (((cfg1.win 0).blk t).view.emb j)) (FloatOps.ofBits (F := Ideal) .f32 0x00000000#32)
    = FloatOps.maximumf (F := Ideal) (V c main_v46 (((cfg1.win 1).blk t).view.emb j)) (FloatOps.ofBits (F := Ideal) .f32 0x00000000#32)
  have h0 : ((cfg1.win 0).blk t).view.emb j = ((cfg1.win 1).blk t).view.emb j := by
    funext a; apply Fin.ext
    match a with
    | ⟨0, _⟩ => show win1_0.index t (0 : Fin 2) * 5000 + 1 * (j 0).val = win1_1.index t (0 : Fin 2) * 5000 + 1 * (j 0).val; omega
    | ⟨1, _⟩ => show win1_0.index t (1 : Fin 2) * 128 + 1 * (j 1).val = win1_1.index t (1 : Fin 2) * 128 + 1 * (j 1).val; omega
  rw [h0]

/-- An index of the output lies in point `t`'s block iff each coordinate lies in the block's range on its axis. -/
theorem in_block (t : Fin cfg1.N) (i : S100000x128.Idx) :
    i ∈ ((cfg1.win 1).blk t).view.set ↔ ∀ a : Fin 2, win1_1.index t a * S5000x128.size a ≤ (i a).val
      ∧ (i a).val < win1_1.index t a * S5000x128.size a + S5000x128.size a := by
  show i ∈ ((View.whole main_v47).slice (win1_1.rect t)).set ↔ _
  rw [View.set_slice_whole, Rect.mem_set_unit]
  exact Iff.rfl

/-- Every index of the output is in the block of the point numbered by its row divided by 5000. -/
theorem covered (i : S100000x128.Idx) :
    ∃ t : Fin cfg1.N, (cfg1.win 1).flush t = true ∧ i ∈ ((cfg1.win 1).blk t).view.set := by
  have hi0 : (i 0).val < 100000 := (i 0).isLt
  have hi1 : (i 1).val < 128 := (i 1).isLt
  have hN : grid1.N = 20 := N_1
  have ht : (i 0).val / 5000 < grid1.N := by rw [hN]; omega
  obtain ⟨q0, q1⟩ := out_block ⟨(i 0).val / 5000, ht⟩
  refine ⟨⟨(i 0).val / 5000, ht⟩, flush1_1 _, ?_⟩
  rw [in_block]
  intro a
  match a with
  | ⟨0, _⟩ =>
    show win1_1.index ⟨(i 0).val / 5000, ht⟩ (0 : Fin 2) * 5000 ≤ (i 0).val
      ∧ (i 0).val < win1_1.index ⟨(i 0).val / 5000, ht⟩ (0 : Fin 2) * 5000 + 5000
    rw [q0]; show (i 0).val / 5000 * 5000 ≤ (i 0).val ∧ (i 0).val < (i 0).val / 5000 * 5000 + 5000; omega
  | ⟨1, _⟩ =>
    show win1_1.index ⟨(i 0).val / 5000, ht⟩ (1 : Fin 2) * 128 ≤ (i 1).val
      ∧ (i 1).val < win1_1.index ⟨(i 0).val / 5000, ht⟩ (1 : Fin 2) * 128 + 128
    rw [q1]; omega

/-- The output array after the launch is the rectifier of the input array as the launch found it. -/
theorem array (c : Dev nD) : (dat1 V c).arrAt 1 cfg1.N = rectified (V c main_v46) :=
  (dat1 V c).arrAt_eq_of_cover 1 (rectified (V c main_v46)) (fun t _ => written_back V c t) covered

end Cert.KernelIdeal.Rectifier

end
-- ==== Proof.Stages.lean ====
/-
  The idealized kernel's buffers, boundary by boundary, as the reference's stages of the launched arguments.

  Both programs run the same host operations around the two places where they differ. Writing e, s, d, w for the four
  launched arguments (edge list, source and destination features, weight) and naming each host operation's value as a
  function of them (the stage functions of the reference, read one operation at a time), the kernel's run holds:
    * when the linear launch is entered: the concatenated features x(s, d), the weight w, the two index vectors
      row(e), col(e) and the edge normalisation norm(e) — each the same stage of the arguments as in the reference,
      since the operations before the launch are the reference's own;
    * when it is left: its output is the whole matrix product x·w, which is the reference's contraction of x with w
      (the same sum over the 128 contracted columns at every entry), and the other buffers are untouched;
    * when the rectifier launch is entered: the aggregate agg(e, s, d, w) — gather the product's rows at row(e),
      scale by norm(e), scatter-add at col(e) — again the reference's stage, by the same operations applied to
      equal values;
    * when it is left: max(agg, 0) entry by entry, the reference's maximum against the zero splat;
    * at the end: the two halves of that array.
  No law of the extended reals beyond the entries of the two products being the same sums is used, so finiteness of
  the inputs is never needed.
-/
import proofs.«128792_j69526930588078_1_alg».proof.Proof.Gen.KernelIdeal.Frame
import proofs.«128792_j69526930588078_1_alg».proof.Proof.RefRead
import proofs.«128792_j69526930588078_1_alg».proof.Proof.LinearArray
import proofs.«128792_j69526930588078_1_alg».proof.Proof.ReluArray
import Idealize.ShloMosaic.Lib.StableHlo.Run

set_option maxRecDepth 16384

noncomputable section

namespace Cert.KernelIdeal.Stages

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The two launches against the reference's operations, on any arrays -/

/-- The whole matrix product of the concatenated features with the weight is the reference's contraction: at every
    entry both are the sum over the 128 contracted columns of feature (row, k) times weight (k, column). -/
theorem product_is_contraction (x1 x2 : (⟨S50000x128, .f32⟩ : BufTy).Contents (Elt Ideal)) (x3 : (⟨S128x128, .f32⟩ : BufTy).Contents (Elt Ideal)) :
    Linear.product (Cert.ReferenceIdeal.ReadP.val_main_v0 (F := Ideal) x1 x2) x3 = Cert.ReferenceIdeal.ReadP.val_main_v33 (F := Ideal) x1 x2 x3 := by
  funext i
  rw [Cert.ReferenceIdeal.ReadP.val_main_v33_apply]
  generalize Cert.ReferenceIdeal.ReadP.val_main_v0 (F := Ideal) x1 x2 = y
  refine Finset.sum_congr rfl fun k _ => ?_
  have el : Linear.featIdx ⟨(i 0).val, (i 0).isLt⟩ k = Cert.ReferenceIdeal.ReadP.lidx_main_v33 i k :=
    funext fun a => by match a with | ⟨0, _⟩ => rfl | ⟨1, _⟩ => rfl
  have er : Linear.weightIdx k ⟨(i 1).val, (i 1).isLt⟩ = Cert.ReferenceIdeal.ReadP.ridx_main_v33 i k :=
    funext fun a => by match a with | ⟨0, _⟩ => rfl | ⟨1, _⟩ => rfl
  show y (Linear.featIdx ⟨(i 0).val, (i 0).isLt⟩ k) * x3 (Linear.weightIdx k ⟨(i 1).val, (i 1).isLt⟩) = _
  rw [el, er]

/-- The entry-wise rectifier of the aggregate is the reference's maximum of it with the zero splat. -/
theorem rectifier_is_maximum (x0 : (⟨S2x800000, .i32⟩ : BufTy).Contents (Elt Ideal)) (x1 x2 : (⟨S50000x128, .f32⟩ : BufTy).Contents (Elt Ideal)) (x3 : (⟨S128x128, .f32⟩ : BufTy).Contents (Elt Ideal)) :
    Rectifier.rectified (Cert.ReferenceIdeal.ReadP.val_main_v46 (F := Ideal) x0 x1 x2 x3) = Cert.ReferenceIdeal.ReadP.val_main_v47 (F := Ideal) x0 x1 x2 x3 := by
  funext i
  rw [Cert.ReferenceIdeal.ReadP.val_main_v47_apply, Cert.ReferenceIdeal.ReadP.val_main_call1_v0_apply, Cert.ReferenceIdeal.ReadP.val_main_call1_cst_apply]

/-! ## The linear launch's entry -/

/-- The concatenated features, as the linear launch finds them. -/
theorem features (c : Dev nD) :
    V3 m ρ c main_v0 = Cert.ReferenceIdeal.ReadP.val_main_v0 (F := Ideal) (m ((c.tc : Thread nD τ).loc main_arg1)) (m ((c.tc : Thread nD τ).loc main_arg2)) := by
  show StableHlo.after hostOps0_2 (StableHlo.after hostOps0_1 (StableHlo.after hostOps0 (W0 m ρ c))) (Proc.devRef .tc main_v0) = _
  dsimp only [hostOps0, hostOps0_1, hostOps0_2]
  after_results_simp
  rfl

/-- The weight, as the linear launch finds it: no operation before it writes an argument. -/
theorem weight (c : Dev nD) : V3 m ρ c main_arg3 = (m ((c.tc : Thread nD τ).loc main_arg3)) := by
  show StableHlo.after hostOps0_2 (StableHlo.after hostOps0_1 (StableHlo.after hostOps0 (W0 m ρ c))) (Proc.devRef .tc main_arg3) = _
  dsimp only [hostOps0, hostOps0_1, hostOps0_2]
  after_results_simp

/-- The source index vector (with the self loops appended), at the linear launch's entry. -/
theorem rows (c : Dev nD) :
    W3 m ρ c (Proc.devRef .tc main_v8) = Cert.ReferenceIdeal.ReadP.val_main_v8 (F := Ideal) (m ((c.tc : Thread nD τ).loc main_arg0)) := by
  show StableHlo.after hostOps0_2 (StableHlo.after hostOps0_1 (StableHlo.after hostOps0 (W0 m ρ c))) (Proc.devRef .tc main_v8) = _
  dsimp only [hostOps0, hostOps0_1, hostOps0_2]
  after_results_simp
  rfl

/-- The destination index vector (shifted, with the self loops appended), at the linear launch's entry. -/
theorem cols (c : Dev nD) :
    W3 m ρ c (Proc.devRef .tc main_v9) = Cert.ReferenceIdeal.ReadP.val_main_v9 (F := Ideal) (m ((c.tc : Thread nD τ).loc main_arg0)) := by
  show StableHlo.after hostOps0_2 (StableHlo.after hostOps0_1 (StableHlo.after hostOps0 (W0 m ρ c))) (Proc.devRef .tc main_v9) = _
  dsimp only [hostOps0, hostOps0_1, hostOps0_2]
  after_results_simp
  rfl

/-! ### The edge normalisation, one stretch of host operations at a time

The normalisation reads the degree vector four times (compared with zero and inverse-rooted, at an edge's source and
at its destination), so it is followed stretch by stretch: each step says what a stretch leaves in one buffer from
what the buffers it reads held before, whatever else the memory holds. -/

/-- After the first stretch: which degrees are positive, -/
theorem degree_positive (c : Dev nD) :
    W1 m ρ c (Proc.devRef .tc main_v15) = Cert.ReferenceIdeal.ReadP.val_main_v15 (F := Ideal) (m ((c.tc : Thread nD τ).loc main_arg0)) := by
  show StableHlo.after hostOps0 (W0 m ρ c) (Proc.devRef .tc main_v15) = _
  dsimp only [hostOps0]
  after_results_simp
  rfl
/-- their inverse square roots, -/
theorem degree_rsqrt (c : Dev nD) :
    W1 m ρ c (Proc.devRef .tc main_v16) = Cert.ReferenceIdeal.ReadP.val_main_v16 (F := Ideal) (m ((c.tc : Thread nD τ).loc main_arg0)) := by
  show StableHlo.after hostOps0 (W0 m ρ c) (Proc.devRef .tc main_v16) = _
  dsimp only [hostOps0]
  after_results_simp
  rfl
/-- the zero scalar the selection falls back to, -/
theorem zero_scalar (c : Dev nD) :
    W1 m ρ c (Proc.devRef .tc main_cst_2) = Cert.ReferenceIdeal.ReadP.val_main_cst_2 (F := Ideal) := by
  show StableHlo.after hostOps0 (W0 m ρ c) (Proc.devRef .tc main_cst_2) = _
  dsimp only [hostOps0]
  after_results_simp
  rfl
/-- and the two index vectors. -/
theorem rows_first (c : Dev nD) :
    W1 m ρ c (Proc.devRef .tc main_v8) = Cert.ReferenceIdeal.ReadP.val_main_v8 (F := Ideal) (m ((c.tc : Thread nD τ).loc main_arg0)) := by
  show StableHlo.after hostOps0 (W0 m ρ c) (Proc.devRef .tc main_v8) = _
  dsimp only [hostOps0]
  after_results_simp
  rfl
theorem cols_first (c : Dev nD) :
    W1 m ρ c (Proc.devRef .tc main_v9) = Cert.ReferenceIdeal.ReadP.val_main_v9 (F := Ideal) (m ((c.tc : Thread nD τ).loc main_arg0)) := by
  show StableHlo.after hostOps0 (W0 m ρ c) (Proc.devRef .tc main_v9) = _
  dsimp only [hostOps0]
  after_results_simp
  rfl

/-- The second stretch is a selection: where the mask holds, the second value, elsewhere the scalar broadcast —
    whatever the three values it reads are. -/
theorem selection_of (X : Valuation τ sig (Elt Ideal))
    (mask : (⟨S100000, .i1⟩ : BufTy).Contents (Elt Ideal)) (v : (⟨S100000, .f32⟩ : BufTy).Contents (Elt Ideal))
    (z : (⟨S_, .f32⟩ : BufTy).Contents (Elt Ideal))
    (hmask : X (Proc.devRef .tc main_v15) = mask) (hv : X (Proc.devRef .tc main_v16) = v)
    (hz : X (Proc.devRef .tc main_cst_2) = z) :
    StableHlo.after hostOps0_1 X (Proc.devRef .tc main_v17)
      = select mask v (broadcastInDim S100000 ![] bcast_S_S100000 (id z)) := by
  dsimp only [hostOps0_1]
  after_results_simp
  rw [hmask, hv, hz]
  rfl

/-- The reference's inverse-root stage is that selection of its positivity mask, its inverse roots and its zero. -/
theorem inv_sqrt_is_selection (x0 : (⟨S2x800000, .i32⟩ : BufTy).Contents (Elt Ideal)) :
    Cert.ReferenceIdeal.ReadP.val_main_v17 (F := Ideal) x0
      = select (Cert.ReferenceIdeal.ReadP.val_main_v15 (F := Ideal) x0) (Cert.ReferenceIdeal.ReadP.val_main_v16 (F := Ideal) x0)
          (broadcastInDim S100000 ![] bcast_S_S100000 (id (Cert.ReferenceIdeal.ReadP.val_main_cst_2 (F := Ideal)))) := rfl

/-- So the second stretch leaves the inverse square root of the degree where it is positive and zero elsewhere, from
    whatever memory holds the three values it reads. -/
theorem inv_sqrt_of (X : Valuation τ sig (Elt Ideal)) (x0 : (⟨S2x800000, .i32⟩ : BufTy).Contents (Elt Ideal))
    (h15 : X (Proc.devRef .tc main_v15) = Cert.ReferenceIdeal.ReadP.val_main_v15 (F := Ideal) x0)
    (h16 : X (Proc.devRef .tc main_v16) = Cert.ReferenceIdeal.ReadP.val_main_v16 (F := Ideal) x0)
    (hz : X (Proc.devRef .tc main_cst_2) = Cert.ReferenceIdeal.ReadP.val_main_cst_2 (F := Ideal)) :
    StableHlo.after hostOps0_1 X (Proc.devRef .tc main_v17) = Cert.ReferenceIdeal.ReadP.val_main_v17 (F := Ideal) x0 :=
  (selection_of X _ _ _ h15 h16 hz).trans (inv_sqrt_is_selection x0).symm
/-- It writes neither index vector. -/
theorem rows_past_selection (X : Valuation τ sig (Elt Ideal)) :
    StableHlo.after hostOps0_1 X (Proc.devRef .tc main_v8) = X (Proc.devRef .tc main_v8) := by
  dsimp only [hostOps0_1]
  after_results_simp
theorem cols_past_selection (X : Valuation τ sig (Elt Ideal)) :
    StableHlo.after hostOps0_1 X (Proc.devRef .tc main_v9) = X (Proc.devRef .tc main_v9) := by
  dsimp only [hostOps0_1]
  after_results_simp

/-- The third stretch leaves the product of the inverse roots gathered at an edge's source and at its destination,
    from whatever memory holds the inverse roots and the two index vectors. -/
theorem norms_of (X : Valuation τ sig (Elt Ideal)) (x0 : (⟨S2x800000, .i32⟩ : BufTy).Contents (Elt Ideal))
    (h17 : X (Proc.devRef .tc main_v17) = Cert.ReferenceIdeal.ReadP.val_main_v17 (F := Ideal) x0)
    (h8 : X (Proc.devRef .tc main_v8) = Cert.ReferenceIdeal.ReadP.val_main_v8 (F := Ideal) x0)
    (h9 : X (Proc.devRef .tc main_v9) = Cert.ReferenceIdeal.ReadP.val_main_v9 (F := Ideal) x0) :
    StableHlo.after hostOps0_2 X (Proc.devRef .tc main_v32) = Cert.ReferenceIdeal.ReadP.val_main_v32 (F := Ideal) x0 := by
  dsimp only [hostOps0_2]
  after_results_simp
  rw [h17, h8, h9]
  rfl

/-- The per-edge normalisation (inverse square roots of the degrees at both ends, multiplied), at the linear launch's entry. -/
theorem norms (c : Dev nD) :
    W3 m ρ c (Proc.devRef .tc main_v32) = Cert.ReferenceIdeal.ReadP.val_main_v32 (F := Ideal) (m ((c.tc : Thread nD τ).loc main_arg0)) :=
  norms_of (W2 m ρ c) _
    (inv_sqrt_of (W1 m ρ c) _ (degree_positive m ρ c) (degree_rsqrt m ρ c) (zero_scalar m ρ c))
    ((rows_past_selection (W1 m ρ c)).trans (rows_first m ρ c))
    ((cols_past_selection (W1 m ρ c)).trans (cols_first m ρ c))

/-! ## The linear launch's exit -/

/-- The linear launch leaves the reference's contraction of the features with the weight in its output. -/
theorem transformed (c : Dev nD) :
    W4 m ρ c (Proc.devRef .tc main_v33) = Cert.ReferenceIdeal.ReadP.val_main_v33 (F := Ideal) (m ((c.tc : Thread nD τ).loc main_arg1)) (m ((c.tc : Thread nD τ).loc main_arg2)) (m ((c.tc : Thread nD τ).loc main_arg3)) :=
  calc W4 m ρ c (Proc.devRef .tc main_v33)
    _ = (dat0 (V3 m ρ) c).arrAt 2 cfg0.N := W4_arr m ρ c 2
    _ = Linear.product (V3 m ρ c main_v0) (V3 m ρ c main_arg3) := Linear.array (V3 m ρ) c
    _ = Linear.product (Cert.ReferenceIdeal.ReadP.val_main_v0 (F := Ideal) (m ((c.tc : Thread nD τ).loc main_arg1)) (m ((c.tc : Thread nD τ).loc main_arg2))) (m ((c.tc : Thread nD τ).loc main_arg3)) := by
        rw [features m ρ c, weight m ρ c]
    _ = _ := product_is_contraction _ _ _

/-- It writes none of the index vectors or the normalisation. -/
theorem rows_kept (c : Dev nD) : W4 m ρ c (Proc.devRef .tc main_v8) = Cert.ReferenceIdeal.ReadP.val_main_v8 (F := Ideal) (m ((c.tc : Thread nD τ).loc main_arg0)) :=
  (W4_of_ne m ρ c main_v8 (by decide)).trans (rows m ρ c)
theorem cols_kept (c : Dev nD) : W4 m ρ c (Proc.devRef .tc main_v9) = Cert.ReferenceIdeal.ReadP.val_main_v9 (F := Ideal) (m ((c.tc : Thread nD τ).loc main_arg0)) :=
  (W4_of_ne m ρ c main_v9 (by decide)).trans (cols m ρ c)
theorem norms_kept (c : Dev nD) : W4 m ρ c (Proc.devRef .tc main_v32) = Cert.ReferenceIdeal.ReadP.val_main_v32 (F := Ideal) (m ((c.tc : Thread nD τ).loc main_arg0)) :=
  (W4_of_ne m ρ c main_v32 (by decide)).trans (norms m ρ c)

/-! ## The rectifier launch -/

/-- The aggregate, as the rectifier launch finds it: the reference's gather, scale and scatter-add of equal values. -/
theorem aggregated (c : Dev nD) :
    V5 m ρ c main_v46 = Cert.ReferenceIdeal.ReadP.val_main_v46 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W4 m ρ c) (Proc.devRef .tc main_v46) = _
  dsimp only [hostOps1]
  after_results_simp
  rw [transformed m ρ c, rows_kept m ρ c, cols_kept m ρ c, norms_kept m ρ c]
  rfl

/-- The rectifier launch leaves the reference's maximum of the aggregate with zero in its output. -/
theorem rectified (c : Dev nD) :
    W6 m ρ c (Proc.devRef .tc main_v47) = Cert.ReferenceIdeal.ReadP.val_main_v47 (F := Ideal) (m ((c.tc : Thread nD τ).loc main_arg0)) (m ((c.tc : Thread nD τ).loc main_arg1)) (m ((c.tc : Thread nD τ).loc main_arg2)) (m ((c.tc : Thread nD τ).loc main_arg3)) :=
  calc W6 m ρ c (Proc.devRef .tc main_v47)
    _ = (dat1 (V5 m ρ) c).arrAt 1 cfg1.N := W6_arr m ρ c 1
    _ = Rectifier.rectified (V5 m ρ c main_v46) := Rectifier.array (V5 m ρ) c
    _ = Rectifier.rectified (Cert.ReferenceIdeal.ReadP.val_main_v46 (F := Ideal) (m ((c.tc : Thread nD τ).loc main_arg0)) (m ((c.tc : Thread nD τ).loc main_arg1)) (m ((c.tc : Thread nD τ).loc main_arg2)) (m ((c.tc : Thread nD τ).loc main_arg3))) := by
        rw [aggregated m ρ c]
    _ = _ := rectifier_is_maximum _ _ _ _

/-! ## The results -/

/-- The first result: the source half of the rectified aggregate. -/
theorem result_source (c : Dev nD) :
    W7 m ρ c (Proc.devRef .tc main_v48) = Cert.ReferenceIdeal.ReadP.val_main_v48 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps2 (W6 m ρ c) (Proc.devRef .tc main_v48) = _
  dsimp only [hostOps2]
  after_results_simp
  rw [rectified m ρ c]
  rfl

/-- The second result: the destination half of the rectified aggregate. -/
theorem result_target (c : Dev nD) :
    W7 m ρ c (Proc.devRef .tc main_v49) = Cert.ReferenceIdeal.ReadP.val_main_v49 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps2 (W6 m ρ c) (Proc.devRef .tc main_v49) = _
  dsimp only [hostOps2]
  after_results_simp
  rw [rectified m ρ c]
  rfl

end Cert.KernelIdeal.Stages

end
-- ==== Proof.lean ====
/-
  The certificate of a graph convolution layer computed two ways.

  Both programs take an edge list e, source and destination features s and d and a weight w, and compute
      relu( scatter_add over col(e) of  norm(e) · (x·w)[row(e)] ),   x the features stacked,
  returning the two halves of the result; row, col (with the self loops appended) and norm (the product of the
  inverse square roots of the degrees at an edge's two ends) are computed from e by the same host operations in both.
  They differ in two places only. The kernel computes x·w in a launch that walks 20 blocks of 5000 rows, multiplying
  each block by the whole weight into a zero accumulator after casting both operands to a narrower format; the
  reference contracts x with w in one operation. And the kernel takes the final maximum with zero in a second launch
  over the same 20 blocks, where the reference applies one maximum against a zero splat.

  Read over the extended reals a change of format is the identity, a block product's entry (p, q) is the sum over the
  128 contracted columns of feature (p, k) times weight (k, q), and the blocks of either launch tile their array, so
  the first launch leaves the whole matrix product — entry for entry the reference's contraction, the same sum — and
  the second leaves the entry-wise maximum with zero. Everything around and between the launches is the same function
  of equal values. So the two programs end with equal results, and no finiteness of the inputs is used.

  The modules: `KRun` states the kernel's run with its two results named; `LinearArray` and `ReluArray` say what
  each launch leaves in its output array; `Stages` follows the kernel's buffers from boundary to boundary as the
  reference's stages of the arguments; `RefRun` and `RefRead` are the reference's run and its stages. The three
  frames are the generated ones (the reference's is its run with the results dropped), and the idealization rewrote
  no operation, so there is nothing to preserve.
-/
import proofs.«128792_j69526930588078_1_alg».proof.Defs
import proofs.«128792_j69526930588078_1_alg».proof.Proof.Gen.Kernel
import proofs.«128792_j69526930588078_1_alg».proof.Proof.Gen.Kernel.Frame
import proofs.«128792_j69526930588078_1_alg».proof.Proof.Gen.KernelIdeal
import proofs.«128792_j69526930588078_1_alg».proof.Proof.Gen.KernelIdeal.Frame
import proofs.«128792_j69526930588078_1_alg».proof.Proof.Gen.ReferenceIdeal
import proofs.«128792_j69526930588078_1_alg».proof.Proof.RefRun
import proofs.«128792_j69526930588078_1_alg».proof.Proof.RefRead
import proofs.«128792_j69526930588078_1_alg».proof.Proof.Gen.Pre_finite_inputs
import proofs.«128792_j69526930588078_1_alg».proof.Proof.KRun
import proofs.«128792_j69526930588078_1_alg».proof.Proof.Stages
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- The idealized kernel runs and keeps its arguments. -/
theorem frame_ideal : Cert.frame_KernelIdeal := fun m ρ _ => Cert.KernelIdeal.Gen.frame m ρ

/-- The idealized reference runs and keeps its arguments: its run, with what it says of the results dropped. -/
theorem frame_reference : Cert.frame_ReferenceIdeal := fun m ρ _ =>
  (θ_run Cert.ReferenceIdeal.defs _ _).mono (fun _ h c => (h c).2.2) (Cert.ReferenceIdeal.ValueP.run (F := Ideal) m ρ)

/-- The idealization rewrote no operation. -/
theorem preserves : Cert.preserves_Kernel_KernelIdeal := trivial

/-- From memories that agree on the arguments both programs end with each result at the same stage of the arguments:
    the kernel's by following its buffers through its two launches, the reference's by its run. -/
theorem algebraic : Cert.algebraic_KernelIdeal_ReferenceIdeal := by
  intro m ρ m' ρ' _ hagree
  refine ⟨fun c => Cert.ReferenceIdeal.ReadP.val_main_v48 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.ReferenceIdeal.ReadP.val_main_v49 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Stages.result_source m ρ c),
        (h c).2.1.trans (Cert.KernelIdeal.Stages.result_target m ρ c), (h c).2.2⟩)
      (Cert.KernelIdeal.Results.run_results (F := Ideal) m ρ)
  · refine (θ_run Cert.ReferenceIdeal.defs _ _).mono (fun r h c => ⟨(h c).1.trans ?_, (h c).2.1.trans ?_, (h c).2.2⟩)
      (Cert.ReferenceIdeal.ValueP.run (F := Ideal) m' ρ')
    · rw [Cert.ReferenceIdeal.ReadP.val_main_v48_eq, (hagree c).1, (hagree c).2.1, (hagree c).2.2.1, (hagree c).2.2.2]
    · rw [Cert.ReferenceIdeal.ReadP.val_main_v49_eq, (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
